-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x512 : Shape := ⟨2, ![200000, 512]⟩
abbrev S2x6400000 : Shape := ⟨2, ![2, 6400000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S200000x512 : S_.BroadcastsInDim S200000x512 (![] : Fin 0 → Fin S200000x512.rank)
  reducesTo_S200000x512_S_d0_1 : S200000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S200000x512 .f32) (main_arg1 : IVec S2x6400000 32) (main_arg2 : FVec F S512x16 .f32) (main_arg3 : FVec F S16 .f32) (main_arg4 : FVec F S16x7 .f32) (main_arg5 : FVec F S7 .f32) : IVec S_ 1 :=
  let main_v0 : FVec F S200000x512 .f32 := Host.absf main_arg0
  let main_cst : FVec F S_ .f32 := constant S_ .f32 0x7F800000#32
  let main_v1 : FVec F S200000x512 .f32 := broadcastInDim S200000x512 ![] bcast_S_S200000x512 main_cst
  let main_v2 : IVec S200000x512 1 := cmpf .olt main_v0 main_v1
  let main_c : IVec S_ 1 := constantI S_ 1 1#1
  let main_v3 : IVec S_ 1 := (fun x v => Host.reduce IntOp.andi x v reducesTo_S200000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S200000x512 : Shape := ⟨2, ![200000, 512]⟩
abbrev S2x6400000 : Shape := ⟨2, ![2, 6400000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S5000x512 : Shape := ⟨2, ![5000, 512]⟩
abbrev S5000x16 : Shape := ⟨2, ![5000, 16]⟩
abbrev S6600000x16 : Shape := ⟨2, ![6600000, 16]⟩
abbrev S200000x7 : Shape := ⟨2, ![200000, 7]⟩
abbrev S20000x16 : Shape := ⟨2, ![20000, 16]⟩
abbrev S20000x7 : Shape := ⟨2, ![20000, 7]⟩
abbrev S1x16 : Shape := ⟨2, ![1, 16]⟩
abbrev S6600000x7 : Shape := ⟨2, ![6600000, 7]⟩
abbrev S1x7 : Shape := ⟨2, ![1, 7]⟩

abbrev nBuf : Space → Nat
  | .hbm => 79
  | .vmem => 11
  | .smem => 0
  | _ => 0

abbrev bufTy : (tb : Table) → Fin (tcTables nBuf tb) → BufTy
  | .hbm, ⟨0, _⟩ => ⟨S200000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S_, .f32⟩
  | .hbm, ⟨14, _⟩ => ⟨S6600000, .f32⟩
  | .hbm, ⟨15, _⟩ => ⟨S_, .f32⟩
  | .hbm, ⟨16, _⟩ => ⟨S200000, .f32⟩
  | .hbm, ⟨17, _⟩ => ⟨S6600000x1, .i32⟩
  | .hbm, ⟨18, _⟩ => ⟨S200000, .f32⟩
  | .hbm, ⟨19, _⟩ => ⟨S_, .f32⟩
  | .hbm, ⟨20, _⟩ => ⟨S200000, .f32⟩
  | .hbm, ⟨21, _⟩ => ⟨S200000, .f32⟩
  | .hbm, ⟨22, _⟩ => ⟨S200000, .f32⟩
  | .hbm, ⟨23, _⟩ => ⟨S_, .i32⟩
  | .hbm, ⟨24, _⟩ => ⟨S6600000, .i32⟩
  | .hbm, ⟨25, _⟩ => ⟨S6600000, .i1⟩
  | .hbm, ⟨26, _⟩ => ⟨S_, .i32⟩
  | .hbm, ⟨27, _⟩ => ⟨S6600000, .i32⟩
  | .hbm, ⟨28, _⟩ => ⟨S6600000, .i32⟩
  | .hbm, ⟨29, _⟩ => ⟨S6600000, .i32⟩
  | .hbm, ⟨30, _⟩ => ⟨S6600000x1, .i32⟩
  | .hbm, ⟨31, _⟩ => ⟨S6600000, .f32⟩
  | .hbm, ⟨32, _⟩ => ⟨S_, .i32⟩
  | .hbm, ⟨33, _⟩ => ⟨S6600000, .i32⟩
  | .hbm, ⟨34, _⟩ => ⟨S6600000, .i1⟩
  | .hbm, ⟨35, _⟩ => ⟨S_, .i32⟩
  | .hbm, ⟨36, _⟩ => ⟨S6600000, .i32⟩
  | .hbm, ⟨37, _⟩ => ⟨S6600000, .i32⟩
  | .hbm, ⟨38, _⟩ => ⟨S6600000, .i32⟩
  | .hbm, ⟨39, _⟩ => ⟨S6600000x1, .i32⟩
  | .hbm, ⟨40, _⟩ => ⟨S6600000, .f32⟩
  | .hbm, ⟨41, _⟩ => ⟨S6600000, .f32⟩
  | .hbm, ⟨42, _⟩ => ⟨S200000x16, .f32⟩
  | .hbm, ⟨43, _⟩ => ⟨S_, .i32⟩
  | .hbm, ⟨44, _⟩ => ⟨S6600000, .i32⟩
  | .hbm, ⟨45, _⟩ => ⟨S6600000, .i1⟩
  | .hbm, ⟨46, _⟩ => ⟨S_, .i32⟩
  | .hbm, ⟨47, _⟩ => ⟨S6600000, .i32⟩
  | .hbm, ⟨48, _⟩ => ⟨S6600000, .i32⟩
  | .hbm, ⟨49, _⟩ => ⟨S6600000, .i32⟩
  | .hbm, ⟨50, _⟩ => ⟨S6600000x1, .i32⟩
  | .hbm, ⟨51, _⟩ => ⟨S6600000x16, .f32⟩
  | .hbm, ⟨52, _⟩ => ⟨S6600000x1, .f32⟩
  | .hbm, ⟨53, _⟩ => ⟨S6600000x16, .f32⟩
  | .hbm, ⟨54, _⟩ => ⟨S6600000x16, .f32⟩
  | .hbm, ⟨55, _⟩ => ⟨S_, .f32⟩
  | .hbm, ⟨56, _⟩ => ⟨S200000x16, .f32⟩
  | .hbm, ⟨57, _⟩ => ⟨S6600000x1, .i32⟩
  | .hbm, ⟨58, _⟩ => ⟨S200000x16, .f32⟩
  | .hbm, ⟨59, _⟩ => ⟨S200000x7, .f32⟩
  | .hbm, ⟨60, _⟩ => ⟨S_, .i32⟩
  | .hbm, ⟨61, _⟩ => ⟨S6600000, .i32⟩
  | .hbm, ⟨62, _⟩ => ⟨S6600000, .i1⟩
  | .hbm, ⟨63, _⟩ => ⟨S_, .i32⟩
  | .hbm, ⟨64, _⟩ => ⟨S6600000, .i32⟩
  | .hbm, ⟨65, _⟩ => ⟨S6600000, .i32⟩
  | .hbm, ⟨66, _⟩ => ⟨S6600000, .i32⟩
  | .hbm, ⟨67, _⟩ => ⟨S6600000x1, .i32⟩
  | .hbm, ⟨68, _⟩ => ⟨S6600000x7, .f32⟩
  | .hbm, ⟨69, _⟩ => ⟨S6600000x1, .f32⟩
  | .hbm, ⟨70, _⟩ => ⟨S6600000x7, .f32⟩
  | .hbm, ⟨71, _⟩ => ⟨S6600000x7, .f32⟩
  | .hbm, ⟨72, _⟩ => ⟨S_, .f32⟩
  | .hbm, ⟨73, _⟩ => ⟨S200000x7, .f32⟩
  | .hbm, ⟨74, _⟩ => ⟨S6600000x1, .i32⟩
  | .hbm, ⟨75, _⟩ => ⟨S200000x7, .f32⟩
  | .hbm, ⟨76, _⟩ => ⟨S1x7, .f32⟩
  | .hbm, ⟨77, _⟩ => ⟨S200000x7, .f32⟩
  | .hbm, ⟨78, _⟩ => ⟨S200000x7, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S20000x16, .f32⟩
  | .local _ .vmem, ⟨6, _⟩ => ⟨S20000x16, .f32⟩
  | .local _ .vmem, ⟨7, _⟩ => ⟨S16, .f32⟩
  | .local _ .vmem, ⟨8, _⟩ => ⟨S16x7, .f32⟩
  | .local _ .vmem, ⟨9, _⟩ => ⟨S20000x7, .f32⟩
  | .local _ .vmem, ⟨10, _⟩ => ⟨S20000x7, .f32⟩
  | _, _ => ⟨S200000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  inb_S20000x16_S20000x16_0_0 : ∀ a, (![0, 0] : Fin 2 → Nat) a + S20000x16.size a ≤ S20000x16.size a
  h_S20000x16 : 0 < S20000x16.numel
  shapeCasts_S20000x16_S20000x16 : S20000x16.ShapeCasts S20000x16
  inb_S16_S16_0 : ∀ a, (![0] : Fin 1 → Nat) a + S16.size a ≤ S16.size a
  h_S16 : 0 < S16.numel
  shapeCasts_S16_S1x16 : S16.ShapeCasts S1x16
  broadcasts_S1x16_S20000x16 : S1x16.Broadcasts S20000x16
  inb_S16x7_S16x7_0_0 : ∀ a, (![0, 0] : Fin 2 → Nat) a + S16x7.size a ≤ S16x7.size a
  h_S16x7 : 0 < S16x7.numel
  inb_S20000x7_S20000x7_0_0 : ∀ a, (![0, 0] : Fin 2 → Nat) a + S20000x7.size a ≤ S20000x7.size a
  h_S20000x7 : 0 < S20000x7.numel
  bcast_S6600000x1_S6600000x7_0_1 : S6600000x1.BroadcastsInDim S6600000x7 (![0, 1] : Fin 2 → Fin S6600000x7.rank)
  bcast_S_S200000x7 : S_.BroadcastsInDim S200000x7 (![] : Fin 0 → Fin S200000x7.rank)
  bcast_S7_S1x7_1 : S7.BroadcastsInDim S1x7 (![1] : Fin 1 → Fin S1x7.rank)
  bcast_S1x7_S200000x7_0_1 : S1x7.BroadcastsInDim S200000x7 (![0, 1] : Fin 2 → Fin S200000x7.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S5000x512_S512x16_S5000x16_1_0_0_1_n_n_wf : DotDims.WF S5000x512 S512x16 S5000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S20000x16_S16x7_S20000x7_1_0_0_1_n_n_wf : DotDims.WF S20000x16 S16x7 S20000x7 [1] [0] [0] [1] [] []
  gather_S200000x7_S6600000x1_S6600000x7_1_0_n_n_0_1_17_wf : GatherDims.WF S200000x7 S6600000x1 S6600000x7 [1] [0] [] [0] [] 1 ![1, 7]
  scatter_S200000x7_S6600000x1_S6600000x7_1_0_0_1_wf : ScatterDims.WF S200000x7 S6600000x1 S6600000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S200000x512.size a
  hwx0_0 : ∀ i : grid0.Coords, EltTy.bits .f32 = 32 ∨ (Rect.block (s := S200000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S200000x16.size a
  hwx0_2 : ∀ i : grid0.Coords, EltTy.bits .f32 = 32 ∨ (Rect.block (s := S200000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x16.size a ≤ S200000x16.size a
  hwx1_0 : ∀ i : grid1.Coords, EltTy.bits .f32 = 32 ∨ (Rect.block (s := S200000x16) S20000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16.size a ≤ S16.size a
  hwx1_1 : ∀ i : grid1.Coords, EltTy.bits .f32 = 32 ∨ (Rect.block (s := S16) S16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x7.size a ≤ S200000x7.size a
  hwx1_3 : ∀ i : grid1.Coords, EltTy.bits .f32 = 32 ∨ (Rect.block (s := S200000x7) S20000x7.size (cc1_transform_3 i) (hinb1_3 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S20000x16_S16x7_S20000x7_1_0_0_1_n_n : DotDims S20000x16 S16x7 S20000x7 where
  lhsContracting := [1]
  rhsContracting := [0]
  lhsNonContracting := [0]
  rhsNonContracting := [1]
  lhsBatch := []
  rhsBatch := []
  wf := dot_S20000x16_S16x7_S20000x7_1_0_0_1_n_n_wf
def gather_S200000x7_S6600000x1_S6600000x7_1_0_n_n_0_1_17 : GatherDims S200000x7 S6600000x1 S6600000x7 where
  offsetDims := [1]
  collapsedSliceDims := [0]
  operandBatchingDims := []
  startIndicesBatchingDims := []
  startIndexMap := [0]
  indexVectorDim := 1
  sliceSizes := ![1, 7]
  wf := gather_S200000x7_S6600000x1_S6600000x7_1_0_n_n_0_1_17_wf
def scatter_S200000x7_S6600000x1_S6600000x7_1_0_0_1 : ScatterDims S200000x7 S6600000x1 S6600000x7 where
  updateWindowDims := [1]
  insertedWindowDims := [0]
  scatterDimsToOperandDims := [0]
  indexVectorDim := 1
  wf := scatter_S200000x7_S6600000x1_S6600000x7_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S20000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S20000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x512 : Shape := ⟨2, ![200000, 512]⟩
abbrev S2x6400000 : Shape := ⟨2, ![2, 6400000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x6400000 : Shape := ⟨2, ![1, 6400000]⟩
abbrev S6400000 : Shape := ⟨1, ![6400000]⟩
abbrev S200000 : Shape := ⟨1, ![200000]⟩
abbrev S6600000 : Shape := ⟨1, ![6600000]⟩
abbrev S200000x16 : Shape := ⟨2, ![200000, 16]⟩
abbrev S_ : Shape := ⟨0, ![]⟩
abbrev S6600000x1 : Shape := ⟨2, ![6600000, 1]⟩
abbrev S6600000x16 : Shape := ⟨2, ![6600000, 16]⟩
abbrev S1x16 : Shape := ⟨2, ![1, 16]⟩
abbrev S200000x7 : Shape := ⟨2, ![200000, 7]⟩
abbrev S6600000x7 : Shape := ⟨2, ![6600000, 7]⟩
abbrev S1x7 : Shape := ⟨2, ![1, 7]⟩

abbrev nBuf : Space → Nat
  | .hbm => 114
  | .vmem => 0
  | .smem => 0
  | _ => 0

abbrev bufTy : (tb : Table) → Fin (tcTables nBuf tb) → BufTy
  | .hbm, ⟨0, _⟩ => ⟨S200000x512, .f32⟩
  | .hbm, ⟨1, _⟩ => ⟨S2x6400000, .i32⟩
  | .hbm, ⟨2, _⟩ => ⟨S512x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S200000, .i32⟩
  | .hbm, ⟨11, _⟩ => ⟨S6600000, .i32⟩
  | .hbm, ⟨12, _⟩ => ⟨S6600000, .i32⟩
  | .hbm, ⟨13, _⟩ => ⟨S200000x16, .f32⟩
  | .hbm, ⟨14, _⟩ => ⟨S_, .f32⟩
  | .hbm, ⟨15, _⟩ => ⟨S6600000, .f32⟩
  | .hbm, ⟨16, _⟩ => ⟨S_, .f32⟩
  | .hbm, ⟨17, _⟩ => ⟨S200000, .f32⟩
  | .hbm, ⟨18, _⟩ => ⟨S6600000x1, .i32⟩
  | .hbm, ⟨19, _⟩ => ⟨S200000, .f32⟩
  | .hbm, ⟨20, _⟩ => ⟨S_, .f32⟩
  | .hbm, ⟨21, _⟩ => ⟨S200000, .f32⟩
  | .hbm, ⟨22, _⟩ => ⟨S200000, .f32⟩
  | .hbm, ⟨23, _⟩ => ⟨S200000, .f32⟩
  | .hbm, ⟨24, _⟩ => ⟨S_, .i32⟩
  | .hbm, ⟨25, _⟩ => ⟨S6600000, .i32⟩
  | .hbm, ⟨26, _⟩ => ⟨S6600000, .i1⟩
  | .hbm, ⟨27, _⟩ => ⟨S_, .i32⟩
  | .hbm, ⟨28, _⟩ => ⟨S6600000, .i32⟩
  | .hbm, ⟨29, _⟩ => ⟨S6600000, .i32⟩
  | .hbm, ⟨30, _⟩ => ⟨S6600000, .i32⟩
  | .hbm, ⟨31, _⟩ => ⟨S6600000x1, .i32⟩
  | .hbm, ⟨32, _⟩ => ⟨S6600000, .f32⟩
  | .hbm, ⟨33, _⟩ => ⟨S_, .i32⟩
  | .hbm, ⟨34, _⟩ => ⟨S6600000, .i32⟩
  | .hbm, ⟨35, _⟩ => ⟨S6600000, .i1⟩
  | .hbm, ⟨36, _⟩ => ⟨S_, .i32⟩
  | .hbm, ⟨37, _⟩ => ⟨S6600000, .i32⟩
  | .hbm, ⟨38, _⟩ => ⟨S6600000, .i32⟩
  | .hbm, ⟨39, _⟩ => ⟨S6600000, .i32⟩
  | .hbm, ⟨40, _⟩ => ⟨S6600000x1, .i32⟩
  | .hbm, ⟨41, _⟩ => ⟨S6600000, .f32⟩
  | .hbm, ⟨42, _⟩ => ⟨S6600000, .f32⟩
  | .hbm, ⟨43, _⟩ => ⟨S_, .i32⟩
  | .hbm, ⟨44, _⟩ => ⟨S6600000, .i32⟩
  | .hbm, ⟨45, _⟩ => ⟨S6600000, .i1⟩
  | .hbm, ⟨46, _⟩ => ⟨S_, .i32⟩
  | .hbm, ⟨47, _⟩ => ⟨S6600000, .i32⟩
  | .hbm, ⟨48, _⟩ => ⟨S6600000, .i32⟩
  | .hbm, ⟨49, _⟩ => ⟨S6600000, .i32⟩
  | .hbm, ⟨50, _⟩ => ⟨S6600000x1, .i32⟩
  | .hbm, ⟨51, _⟩ => ⟨S6600000x16, .f32⟩
  | .hbm, ⟨52, _⟩ => ⟨S6600000x1, .f32⟩
  | .hbm, ⟨53, _⟩ => ⟨S6600000x16, .f32⟩
  | .hbm, ⟨54, _⟩ => ⟨S6600000x16, .f32⟩
  | .hbm, ⟨55, _⟩ => ⟨S_, .f32⟩
  | .hbm, ⟨56, _⟩ => ⟨S200000x16, .f32⟩
  | .hbm, ⟨57, _⟩ => ⟨S6600000x1, .i32⟩
  | .hbm, ⟨58, _⟩ => ⟨S200000x16, .f32⟩
  | .hbm, ⟨59, _⟩ => ⟨S1x16, .f32⟩
  | .hbm, ⟨60, _⟩ => ⟨S200000x16, .f32⟩
  | .hbm, ⟨61, _⟩ => ⟨S200000x16, .f32⟩
  | .hbm, ⟨62, _⟩ => ⟨S_, .f32⟩
  | .hbm, ⟨63, _⟩ => ⟨S200000x16, .f32⟩
  | .hbm, ⟨64, _⟩ => ⟨S200000x16, .f32⟩
  | .hbm, ⟨65, _⟩ => ⟨S200000x7, .f32⟩
  | .hbm, ⟨66, _⟩ => ⟨S_, .f32⟩
  | .hbm, ⟨67, _⟩ => ⟨S6600000, .f32⟩
  | .hbm, ⟨68, _⟩ => ⟨S_, .f32⟩
  | .hbm, ⟨69, _⟩ => ⟨S200000, .f32⟩
  | .hbm, ⟨70, _⟩ => ⟨S6600000x1, .i32⟩
  | .hbm, ⟨71, _⟩ => ⟨S200000, .f32⟩
  | .hbm, ⟨72, _⟩ => ⟨S_, .f32⟩
  | .hbm, ⟨73, _⟩ => ⟨S200000, .f32⟩
  | .hbm, ⟨74, _⟩ => ⟨S200000, .f32⟩
  | .hbm, ⟨75, _⟩ => ⟨S200000, .f32⟩
  | .hbm, ⟨76, _⟩ => ⟨S_, .i32⟩
  | .hbm, ⟨77, _⟩ => ⟨S6600000, .i32⟩
  | .hbm, ⟨78, _⟩ => ⟨S6600000, .i1⟩
  | .hbm, ⟨79, _⟩ => ⟨S_, .i32⟩
  | .hbm, ⟨80, _⟩ => ⟨S6600000, .i32⟩
  | .hbm, ⟨81, _⟩ => ⟨S6600000, .i32⟩
  | .hbm, ⟨82, _⟩ => ⟨S6600000, .i32⟩
  | .hbm, ⟨83, _⟩ => ⟨S6600000x1, .i32⟩
  | .hbm, ⟨84, _⟩ => ⟨S6600000, .f32⟩
  | .hbm, ⟨85, _⟩ => ⟨S_, .i32⟩
  | .hbm, ⟨86, _⟩ => ⟨S6600000, .i32⟩
  | .hbm, ⟨87, _⟩ => ⟨S6600000, .i1⟩
  | .hbm, ⟨88, _⟩ => ⟨S_, .i32⟩
  | .hbm, ⟨89, _⟩ => ⟨S6600000, .i32⟩
  | .hbm, ⟨90, _⟩ => ⟨S6600000, .i32⟩
  | .hbm, ⟨91, _⟩ => ⟨S6600000, .i32⟩
  | .hbm, ⟨92, _⟩ => ⟨S6600000x1, .i32⟩
  | .hbm, ⟨93, _⟩ => ⟨S6600000, .f32⟩
  | .hbm, ⟨94, _⟩ => ⟨S6600000, .f32⟩
  | .hbm, ⟨95, _⟩ => ⟨S_, .i32⟩
  | .hbm, ⟨96, _⟩ => ⟨S6600000, .i32⟩
  | .hbm, ⟨97, _⟩ => ⟨S6600000, .i1⟩
  | .hbm, ⟨98, _⟩ => ⟨S_, .i32⟩
  | .hbm, ⟨99, _⟩ => ⟨S6600000, .i32⟩
  | .hbm, ⟨100, _⟩ => ⟨S6600000, .i32⟩
  | .hbm, ⟨101, _⟩ => ⟨S6600000, .i32⟩
  | .hbm, ⟨102, _⟩ => ⟨S6600000x1, .i32⟩
  | .hbm, ⟨103, _⟩ => ⟨S6600000x7, .f32⟩
  | .hbm, ⟨104, _⟩ => ⟨S6600000x1, .f32⟩
  | .hbm, ⟨105, _⟩ => ⟨S6600000x7, .f32⟩
  | .hbm, ⟨106, _⟩ => ⟨S6600000x7, .f32⟩
  | .hbm, ⟨107, _⟩ => ⟨S_, .f32⟩
  | .hbm, ⟨108, _⟩ => ⟨S200000x7, .f32⟩
  | .hbm, ⟨109, _⟩ => ⟨S6600000x1, .i32⟩
  | .hbm, ⟨110, _⟩ => ⟨S200000x7, .f32⟩
  | .hbm, ⟨111, _⟩ => ⟨S1x7, .f32⟩
  | .hbm, ⟨112, _⟩ => ⟨S200000x7, .f32⟩
  | .hbm, ⟨113, _⟩ => ⟨S200000x7, .f32⟩
  | _, _ => ⟨S200000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  bcast_S6600000x1_S6600000x7_0_1 : S6600000x1.BroadcastsInDim S6600000x7 (![0, 1] : Fin 2 → Fin S6600000x7.rank)
  bcast_S_S200000x7 : S_.BroadcastsInDim S200000x7 (![] : Fin 0 → Fin S200000x7.rank)
  bcast_S7_S1x7_1 : S7.BroadcastsInDim S1x7 (![1] : Fin 1 → Fin S1x7.rank)
  bcast_S1x7_S200000x7_0_1 : S1x7.BroadcastsInDim S200000x7 (![0, 1] : Fin 2 → Fin S200000x7.rank)
  dot_S200000x512_S512x16_S200000x16_1_0_0_1_n_n_wf : DotDims.WF S200000x512 S512x16 S200000x16 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x7_S200000x7_1_0_0_1_n_n_wf : DotDims.WF S200000x16 S16x7 S200000x7 [1] [0] [0] [1] [] []
  gather_S200000x7_S6600000x1_S6600000x7_1_0_n_n_0_1_17_wf : GatherDims.WF S200000x7 S6600000x1 S6600000x7 [1] [0] [] [0] [] 1 ![1, 7]
  scatter_S200000x7_S6600000x1_S6600000x7_1_0_0_1_wf : ScatterDims.WF S200000x7 S6600000x1 S6600000x7 [1] [0] [0] 1

variable [Facts₀]

def dot_S200000x512_S512x16_S200000x16_1_0_0_1_n_n : DotDims S200000x512 S512x16 S200000x16 where
  lhsContracting := [1]
  rhsContracting := [0]
  lhsNonContracting := [0]
  rhsNonContracting := [1]
  lhsBatch := []
  rhsBatch := []
  wf := dot_S200000x512_S512x16_S200000x16_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x7_S200000x7_1_0_0_1_n_n : DotDims S200000x16 S16x7 S200000x7 where
  lhsContracting := [1]
  rhsContracting := [0]
  lhsNonContracting := [0]
  rhsNonContracting := [1]
  lhsBatch := []
  rhsBatch := []
  wf := dot_S200000x16_S16x7_S200000x7_1_0_0_1_n_n_wf
def gather_S200000x7_S6600000x1_S6600000x7_1_0_n_n_0_1_17 : GatherDims S200000x7 S6600000x1 S6600000x7 where
  offsetDims := [1]
  collapsedSliceDims := [0]
  operandBatchingDims := []
  startIndicesBatchingDims := []
  startIndexMap := [0]
  indexVectorDim := 1
  sliceSizes := ![1, 7]
  wf := gather_S200000x7_S6600000x1_S6600000x7_1_0_n_n_0_1_17_wf
def scatter_S200000x7_S6600000x1_S6600000x7_1_0_0_1 : ScatterDims S200000x7 S6600000x1 S6600000x7 where
  updateWindowDims := [1]
  insertedWindowDims := [0]
  scatterDimsToOperandDims := [0]
  indexVectorDim := 1
  wf := scatter_S200000x7_S6600000x1_S6600000x7_1_0_0_1_wf

class Facts : Prop extends Facts₀ where

variable [Facts]
-- ==== Proof.KernelRun.lean ====
/-
  The idealized kernel's whole run, with its result named.

  The program is five stretches in a row: host operations, the first tiled matrix product, host operations, the
  second tiled product (with the bias and the rectifier inside), host operations. The buffer contents at the
  boundaries form a fold from the launch memory; after the last stretch every buffer holds what that fold says.
  The statement here keeps, beside the unchanged arguments, the result buffer at the fold's last value, so that the
  value of the program can be computed from the fold alone.
-/
import proofs.«150889_j3444563771481_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    of the fold through the five stretches, and the six argument arrays end as launched. -/
theorem run_result : θ_run defs (onTc (τ := τ) (main (F := F))) ⟨m, fun _ => 0, ρ⟩ (fun r => ∀ c : Dev nD,
      r.2.mem ((c.tc : Thread nD τ).loc main_v59) = W5 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v59 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Whole

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«150889_j3444563771481_1_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.LibDenseRect.lean ====
/-
  A dense layer with a bias and a rectifier in front, as ONE function of its entries, and the ways a program spells it.

  `rect M K a b z` at (r, k) is max (a (r, k) + b (0, k)) z: a row vector added to every row, then the maximum with
  a fixed number z. `hidden M K N a b w z` at (r, c) is the sum over k of rect (r, k) * w (k, c). On the extended
  reals each entry is a finite sum of products, so it does not depend on an order or a grouping and nothing has to
  be finite.

  * a matrix product into the zero accumulator is `RowsProduct.prod`;
  * the maximum against a broadcast scalar and against a broadcast one-entry constant are both `rect`;
  * ROW LOCALITY: entry (r, c) of `hidden` reads row r of `a` only, so the layer applied to a block of rows, at an
    entry of the block, is the layer applied to the whole table at the entry the block's position sends it to.
-/
import proofs.«150889_j3444563771481_1_alg».proof.Proof.LibRowsProduct

noncomputable section

namespace DenseRect

open Idealize.ShloMosaic Idealize.ShloMosaic.ValueIdx

variable (M K N : Nat)

/-- A matrix product into the zero accumulator is the matrix product. -/
theorem matmul_eq_prod (x : FVec Ideal ⟨2, ![M, K]⟩ .f32) (w : FVec Ideal ⟨2, ![K, N]⟩ .f32) :
    matmul (DotDims.plain M K N) none x w (constant ⟨2, ![M, N]⟩ .f32 0x00000000#32) = RowsProduct.prod M K N x w :=
  funext fun j => PlainDot.matmul_zero_apply M K N none x w j

/-- A row vector added to every row, then the maximum with `z`. -/
def rect (a : FVec Ideal ⟨2, ![M, K]⟩ .f32) (b : FVec Ideal ⟨2, ![1, K]⟩ .f32) (z : EReal) : FVec Ideal ⟨2, ![M, K]⟩ .f32 :=
  fun i => max (RowsProduct.addRow M K a b i : EReal) z

/-- The maximum with a scalar broadcast to the table. -/
theorem maximumf_broadcast_eq (a : FVec Ideal ⟨2, ![M, K]⟩ .f32) (b : FVec Ideal ⟨2, ![1, K]⟩ .f32) (z : Ideal .f32) :
    maximumf (RowsProduct.addRow M K a b) (broadcast ⟨2, ![M, K]⟩ z) = rect M K a b z := rfl

/-- The maximum with a one-entry constant broadcast to the table. -/
theorem maximumf_broadcastInDim_eq (a : FVec Ideal ⟨2, ![M, K]⟩ .f32) (b : FVec Ideal ⟨2, ![1, K]⟩ .f32) (bits : BitVec 32)
    (h : (⟨0, ![]⟩ : Shape).BroadcastsInDim ⟨2, ![M, K]⟩ ![]) :
    maximumf (RowsProduct.addRow M K a b) (broadcastInDim ⟨2, ![M, K]⟩ ![] h (constant (F := Ideal) ⟨0, ![]⟩ .f32 bits))
      = rect M K a b (Ideal.ofBits .f32 bits) := rfl

/-- Row locality of `rect`: one entry reads one entry of the table and one of the row vector. -/
theorem rect_rows {Mb : Nat} (A : FVec Ideal ⟨2, ![M, K]⟩ .f32) (ab : FVec Ideal ⟨2, ![Mb, K]⟩ .f32)
    (b : FVec Ideal ⟨2, ![1, K]⟩ .f32) (z : EReal)
    (j : (⟨2, ![Mb, K]⟩ : Shape).Idx) (i : (⟨2, ![M, K]⟩ : Shape).Idx) (ha : ab j = A i) (hc : j 1 = i 1) :
    rect Mb K ab b z j = rect M K A b z i := by
  show max (RowsProduct.addRow Mb K ab b j : EReal) z = max (RowsProduct.addRow M K A b i : EReal) z
  rw [RowsProduct.addRow_rows M K A b ab b j i ha (by rw [hc])]

/-- Bias, rectifier, times the weights: entry (r, c) is the sum over k of max (a (r, k) + b (0, k)) z * w (k, c). -/
def hidden (a : FVec Ideal ⟨2, ![M, K]⟩ .f32) (b : FVec Ideal ⟨2, ![1, K]⟩ .f32) (w : FVec Ideal ⟨2, ![K, N]⟩ .f32) (z : EReal) :
    FVec Ideal ⟨2, ![M, N]⟩ .f32 :=
  RowsProduct.prod M K N (rect M K a b z) w

/-- ROW LOCALITY of the layer: if row `j 0` of the block `ab` is row `i 0` of the table `A` and the columns agree, the
    layer of the block at `j` is the layer of the table at `i`. -/
theorem hidden_rows {Mb : Nat} (A : FVec Ideal ⟨2, ![M, K]⟩ .f32) (ab : FVec Ideal ⟨2, ![Mb, K]⟩ .f32)
    (b : FVec Ideal ⟨2, ![1, K]⟩ .f32) (w : FVec Ideal ⟨2, ![K, N]⟩ .f32) (z : EReal)
    (j : (⟨2, ![Mb, N]⟩ : Shape).Idx) (i : (⟨2, ![M, N]⟩ : Shape).Idx)
    (ha : ∀ k : Fin K, ab (ix2 (j 0) k) = A (ix2 (i 0) k)) (hc : j 1 = i 1) :
    hidden Mb K N ab b w z j = hidden M K N A b w z i :=
  RowsProduct.prod_rows M K N (rect M K A b z) w (rect Mb K ab b z) w j i
    (fun k => rect_rows M K A ab b z (ix2 (j 0) k) (ix2 (i 0) k) (ha k) rfl) (fun k => by rw [hc])

end DenseRect

end
-- ==== Proof.FirstProduct.lean ====
/-
  The first tiled product is the whole product.

  The first kernel takes 40 blocks of 5000 rows of the feature table, and at each block stores the block times the
  whole first weight matrix into the matching 5000 rows of its output. An entry of a matrix product reads one row
  of the left operand, so what block t stores is rows 5000 t … 5000 t + 4999 of the product of the whole tables; the
  40 blocks tile the 200000 rows, so after the run the output array is that product, whatever the tables hold.
-/
import proofs.«150889_j3444563771481_1_alg».proof.Proof.Gen.KernelIdeal.Frame
import proofs.«150889_j3444563771481_1_alg».proof.Proof.LibDenseRect
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl

/-- What the body stores: its two loaded blocks multiplied. -/
theorem product_block (x0 : Vec Ideal S5000x512 .f32) (x1 : Vec Ideal S512x16 .f32) :
    k0_pay1 (F := Ideal) x0 x1 = RowsProduct.prod 5000 512 16 x0 x1 :=
  DenseRect.matmul_eq_prod 5000 512 16 x0 x1

/-- The printed index maps over the 40 grid points: the feature block and the output block sit at block row t, the
    weights at block (0, 0). -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the product of the whole tables as the region finds them. -/
theorem flushed_product (c : Dev nD) (t : Fin cfg0.N) :
    (dat0 V c).flushed 2 t
      = ((cfg0.win 2).blk t).view.read (Elt Ideal) (RowsProduct.prod 200000 512 16 (V c main_arg0) (V c main_arg2)) := by
  show (cfg0.win 2).cut (grid0.coords t) ((dat0 V c).after 2 t) = _
  rw [after0_2]
  unfold out0_2
  rw [View.canon_unit_zero zero2]
  simp only [View.ld_unit_zero (S := S5000x512) zero2, View.ld_unit_zero (S := S512x16) zero2]
  rw [product_block]
  obtain ⟨e0, e1, e2, e3, e4, e5⟩ := blocks0 t
  funext j
  show RowsProduct.prod 5000 512 16 (iblk0 V c 0 t) (iblk0 V c 1 t) j
    = RowsProduct.prod 200000 512 16 (V c main_arg0) (V c main_arg2) (((cfg0.win 2).blk t).view.emb j)
  refine RowsProduct.prod_rows 200000 512 16 (V c main_arg0) (V c main_arg2) (iblk0 V c 0 t) (iblk0 V c 1 t) j _
    (fun k => ?_) (fun k => ?_)
  · show V c main_arg0 (((cfg0.win 0).blk t).view.emb (ix2 (j 0) k)) = V c main_arg0 (ix2 ((((cfg0.win 2).blk t).view.emb j) 0) k)
    congr 1
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 512 + 1 * k.val = k.val
      omega
  · show V c main_arg2 (((cfg0.win 1).blk t).view.emb (ix2 k (j 1))) = V c main_arg2 (ix2 k ((((cfg0.win 2).blk t).view.emb j) 1))
    congr 1
    funext a; apply Fin.ext
    match a with
    | ⟨0, _⟩ =>
      show win0_1.index t (0 : Fin 2) * 512 + 1 * k.val = k.val
      omega
    | ⟨1, _⟩ =>
      show win0_1.index t (1 : Fin 2) * 16 + 1 * (j 1).val = win0_2.index t (1 : Fin 2) * 16 + 1 * (j 1).val
      omega

/-- An index of the output array is in point t's block iff each coordinate is in the block's range on its axis. -/
theorem mem_block0 (t : Fin cfg0.N) (i : S200000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v29).slice (win0_2.rect t)).set ↔ _
  rw [View.set_slice_whole, Rect.mem_set_unit]
  exact Iff.rfl

/-- Every row lies in the block of the point numbered by the row divided by 5000. -/
theorem covered0 (i : S200000x16.Idx) : ∃ t : Fin cfg0.N, (cfg0.win 2).flush t = true ∧ i ∈ ((cfg0.win 2).blk t).view.set := by
  have hN : cfg0.N = 40 := N_0
  have hi0 : (i 0).val < 200000 := (i 0).isLt
  have hi1 : (i 1).val < 16 := (i 1).isLt
  let t : Fin cfg0.N := ⟨(i 0).val / 5000, by omega⟩
  obtain ⟨e0, e1, e2, e3, e4, e5⟩ := blocks0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE OUTPUT ARRAY after the first region: the product of the two tables the region found. -/
theorem product_array (c : Dev nD) :
    (dat0 V c).arrAt 2 cfg0.N = RowsProduct.prod 200000 512 16 (V c main_arg0) (V c main_arg2) :=
  (dat0 V c).arrAt_eq_of_cover 2 (RowsProduct.prod 200000 512 16 (V c main_arg0) (V c main_arg2))
    (fun t _ => flushed_product V c t) covered0

end Cert.KernelIdeal.Whole

end
-- ==== Proof.SecondLayer.lean ====
/-
  The second tiled layer is the whole layer.

  The second kernel takes 10 blocks of 20000 rows of the aggregated table together with the whole bias vector and
  the whole second weight matrix; at each block it adds the bias to every row, takes the maximum with zero, multiplies
  by the weights and stores the 20000 result rows. Entry (r, c) of that layer reads row r of the table only, so what
  block t stores is rows 20000 t … 20000 t + 19999 of the layer applied to the whole table; the 10 blocks tile the
  200000 rows, so after the run the output array is the layer of the whole table, whatever the arrays hold.
-/
import proofs.«150889_j3444563771481_1_alg».proof.Proof.Gen.KernelIdeal.Frame
import proofs.«150889_j3444563771481_1_alg».proof.Proof.LibDenseRect
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The bias vector as a row. -/
abbrev biasRow (b : Vec Ideal S16 .f32) : FVec Ideal S1x16 .f32 := shapeCast S1x16 b shapeCasts_S16_S1x16

/-- What the body stores: the layer of its loaded block of rows, with the loaded bias and weights. -/
theorem hidden_block (x0 : Vec Ideal S20000x16 .f32) (x1 : Vec Ideal S16 .f32) (x2 : Vec Ideal S16x7 .f32) :
    k1_pay1 (F := Ideal) x0 x1 x2 = DenseRect.hidden 20000 16 7 x0 (biasRow x1) x2 (Ideal.ofBits .f32 0x00000000#32) := by
  have e1 : shapeCast S20000x16 x0 shapeCasts_S20000x16_S20000x16 = x0 := shapeCast_self x0 _
  have e2 : addf (F := Ideal) x0 (broadcastTo S20000x16 (biasRow x1) broadcasts_S1x16_S20000x16)
      = RowsProduct.addRow 20000 16 x0 (biasRow x1) :=
    RowsProduct.addf_broadcastTo_eq 20000 16 x0 (biasRow x1) (by decide) broadcasts_S1x16_S20000x16
  unfold k1_pay1
  dsimp only
  rw [e1, e2]
  exact DenseRect.matmul_eq_prod 20000 16 7 _ x2

/-- The printed index maps over the 10 grid points: the table block and the output block sit at block row t, the
    bias and the weights at block 0. -/
theorem blocks1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The bias window's block is the whole bias vector. -/
theorem bias_block (c : Dev nD) (t : Fin cfg1.N) : iblk1 V c 1 t = V c main_arg3 := by
  obtain ⟨e0, e1, e2, e3, e4, e5, e6⟩ := blocks1 t
  funext y
  show V c main_arg3 (((cfg1.win 1).blk t).view.emb y) = V c main_arg3 y
  congr 1
  funext a; apply Fin.ext
  match a with
  | ⟨0, _⟩ => show win1_1.index t (0 : Fin 1) * 16 + 1 * (y 0).val = (y 0).val; omega

/-- The weight window's block is the whole weight matrix. -/
theorem weights_block (c : Dev nD) (t : Fin cfg1.N) : iblk1 V c 2 t = V c main_arg4 := by
  obtain ⟨e0, e1, e2, e3, e4, e5, e6⟩ := blocks1 t
  funext y
  show V c main_arg4 (((cfg1.win 2).blk t).view.emb y) = V c main_arg4 y
  congr 1
  funext a; apply Fin.ext
  match a with
  | ⟨0, _⟩ => show win1_2.index t (0 : Fin 2) * 16 + 1 * (y 0).val = (y 0).val; omega
  | ⟨1, _⟩ => show win1_2.index t (1 : Fin 2) * 7 + 1 * (y 1).val = (y 1).val; omega

/-- The layer of the whole table as the region finds it. -/
abbrev hiddenOf (c : Dev nD) : FVec Ideal S200000x7 .f32 :=
  DenseRect.hidden 200000 16 7 (V c main_v42) (biasRow (V c main_arg3)) (V c main_arg4) (Ideal.ofBits .f32 0x00000000#32)

/-- WHAT POINT t WRITES BACK is block t of the layer of the whole table. -/
theorem flushed_hidden (c : Dev nD) (t : Fin cfg1.N) :
    (dat1 V c).flushed 3 t = ((cfg1.win 3).blk t).view.read (Elt Ideal) (hiddenOf V c) := by
  show (cfg1.win 3).cut (grid1.coords t) ((dat1 V c).after 3 t) = _
  rw [after1_3]
  unfold out1_3
  rw [View.canon_unit_zero zeros2]
  simp only [View.ld_unit_zero (S := S20000x16) zeros2, View.ld_unit_zero (S := S16) zeros1, View.ld_unit_zero (S := S16x7) zeros2]
  rw [hidden_block, bias_block, weights_block]
  obtain ⟨e0, e1, e2, e3, e4, e5, e6⟩ := blocks1 t
  funext j
  show DenseRect.hidden 20000 16 7 (iblk1 V c 0 t) (biasRow (V c main_arg3)) (V c main_arg4) (Ideal.ofBits .f32 0x00000000#32) j
    = DenseRect.hidden 200000 16 7 (V c main_v42) (biasRow (V c main_arg3)) (V c main_arg4) (Ideal.ofBits .f32 0x00000000#32)
        (((cfg1.win 3).blk t).view.emb j)
  refine DenseRect.hidden_rows 200000 16 7 (V c main_v42) (iblk1 V c 0 t) (biasRow (V c main_arg3)) (V c main_arg4) _ j _
    (fun k => ?_) ?_
  · show V c main_v42 (((cfg1.win 0).blk t).view.emb (ix2 (j 0) k)) = V c main_v42 (ix2 ((((cfg1.win 3).blk t).view.emb j) 0) k)
    congr 1
    funext a; apply Fin.ext
    match a with
    | ⟨0, _⟩ =>
      show win1_0.index t (0 : Fin 2) * 20000 + 1 * (j 0).val = win1_3.index t (0 : Fin 2) * 20000 + 1 * (j 0).val
      omega
    | ⟨1, _⟩ =>
      show win1_0.index t (1 : Fin 2) * 16 + 1 * k.val = k.val
      omega
  · apply Fin.ext
    show (j 1).val = win1_3.index t (1 : Fin 2) * 7 + 1 * (j 1).val
    omega

/-- An index of the output array is in point t's block iff each coordinate is in the block's range on its axis. -/
theorem mem_block1 (t : Fin cfg1.N) (i : S200000x7.Idx) :
    i ∈ ((cfg1.win 3).blk t).view.set ↔ ∀ a : Fin 2, win1_3.index t a * S20000x7.size a ≤ (i a).val ∧ (i a).val < win1_3.index t a * S20000x7.size a + S20000x7.size a := by
  show i ∈ ((View.whole main_v43).slice (win1_3.rect t)).set ↔ _
  rw [View.set_slice_whole, Rect.mem_set_unit]
  exact Iff.rfl

/-- Every row lies in the block of the point numbered by the row divided by 20000. -/
theorem covered1 (i : S200000x7.Idx) : ∃ t : Fin cfg1.N, (cfg1.win 3).flush t = true ∧ i ∈ ((cfg1.win 3).blk t).view.set := by
  have hN : cfg1.N = 10 := N_1
  have hi0 : (i 0).val < 200000 := (i 0).isLt
  have hi1 : (i 1).val < 7 := (i 1).isLt
  let t : Fin cfg1.N := ⟨(i 0).val / 20000, by omega⟩
  obtain ⟨e0, e1, e2, e3, e4, e5, e6⟩ := blocks1 t
  have ht : t.val = (i 0).val / 20000 := rfl
  refine ⟨t, flush1_3 t, ?_⟩
  rw [mem_block1]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 7 ≤ (i 1).val ∧ (i 1).val < win1_3.index t (1 : Fin 2) * 7 + 7; omega

/-- THE OUTPUT ARRAY after the second region: the layer of the table, the bias and the weights the region found. -/
theorem hidden_array (c : Dev nD) : (dat1 V c).arrAt 3 cfg1.N = hiddenOf V c :=
  (dat1 V c).arrAt_eq_of_cover 3 (hiddenOf V c) (fun t _ => flushed_hidden V c t) covered1

end Cert.KernelIdeal.Whole

end
-- ==== Proof.Network.lean ====
/-
  A two-layer graph convolution on 200000 nodes, as functions of arrays.

  The edge list e : [2, 6400000] holds a source row and a target row; both get the 200000 self-loops appended
  (`srcOf`, `dstOf`: 6600000 entries each). A node's degree d counts the entries of the target list naming it, its
  weight is rsqrt (max d 1), and an edge's coefficient is the product of the weights of its two ends (`coeff`). One
  propagation step (`spread16`, `spread7`) gathers the rows of a node table at the sources, scales each by its
  edge's coefficient and adds it into the row of the edge's target, starting from the zero table.

  The network is: features times the first weights (`layer1`), a propagation step, the first bias and the
  rectifier, times the second weights (`layer2`), a propagation step, the second bias (`addBias7`). Index words
  are wrapped the way an array language wraps a negative index (`wrap`: v + 200000 when v < 0). Everything is
  stated on the extended reals with the exact operations; nothing here is assumed finite or in range.
-/
import proofs.«150889_j3444563771481_1_alg».proof.ReferenceIdeal
import proofs.«150889_j3444563771481_1_alg».proof.Proof.Gen.ReferenceIdeal
import Idealize.ShloMosaic.PureOps.Ideal

noncomputable section

namespace Cert.Gcn

open Idealize.ShloMosaic Cert.ReferenceIdeal Cert.ReferenceIdeal.Facts₀

/-- A list of 6400000 index words followed by the 200000 words 0, 1, …, 199999 (the self-loops). -/
def withLoops (row : (⟨S6400000, .i32⟩ : BufTy).Contents (Elt Ideal)) : (⟨S6600000, .i32⟩ : BufTy).Contents (Elt Ideal) :=
  ((fun a b => concatenate S6600000 0 [⟨S6400000, a⟩, ⟨S200000, b⟩] concatenates_S6400000_S200000_S6600000_d0) : (⟨S6400000, .i32⟩ : BufTy).Contents (Elt Ideal) → (⟨S200000, .i32⟩ : BufTy).Contents (Elt Ideal) → (⟨S6600000, .i32⟩ : BufTy).Contents (Elt Ideal))
    row (iotaInDim S200000 32 0)

/-- The sources: row 0 of the edge list, then the self-loops. -/
def srcOf (e : (⟨S2x6400000, .i32⟩ : BufTy).Contents (Elt Ideal)) : (⟨S6600000, .i32⟩ : BufTy).Contents (Elt Ideal) :=
  withLoops (shapeCast S6400000 (extractStridedSlice S1x6400000 ![0, 0] e slices_S2x6400000_S1x6400000_0_0) shapeCasts_S1x6400000_S6400000)

/-- The targets: row 1 of the edge list, then the self-loops. -/
def dstOf (e : (⟨S2x6400000, .i32⟩ : BufTy).Contents (Elt Ideal)) : (⟨S6600000, .i32⟩ : BufTy).Contents (Elt Ideal) :=
  withLoops (shapeCast S6400000 (extractStridedSlice S1x6400000 ![1, 0] e slices_S2x6400000_S1x6400000_1_0) shapeCasts_S1x6400000_S6400000)

/-- A negative index word v is read as v + 200000. -/
def wrap (v : (⟨S6600000, .i32⟩ : BufTy).Contents (Elt Ideal)) : (⟨S6600000, .i32⟩ : BufTy).Contents (Elt Ideal) :=
  select (cmpi .slt v (broadcastInDim S6600000 ![] bcast_S_S6600000 (constantI S_ 32 0#32)))
    (addi v (broadcastInDim S6600000 ![] bcast_S_S6600000 (constantI S_ 32 200000#32))) v

/-- A list of index words as a column of start indices. -/
def col (v : (⟨S6600000, .i32⟩ : BufTy).Contents (Elt Ideal)) : (⟨S6600000x1, .i32⟩ : BufTy).Contents (Elt Ideal) :=
  broadcastInDim S6600000x1 ![0] bcast_S6600000_S6600000x1_0 v

/-- Each node's weight rsqrt (max degree 1), the degree counted over the target list. -/
def weight (d : (⟨S6600000, .i32⟩ : BufTy).Contents (Elt Ideal)) : FVec Ideal S200000 .f32 :=
  Host.rsqrt (F := Ideal) (maximumf
    (Host.scatterAdd (F := Ideal) scatter_S200000_S6600000x1_S6600000_n_0_0_1
      (broadcastInDim S200000 ![] bcast_S_S200000 (constant (F := Ideal) S_ .f32 0x00000000#32)) (col d)
      (broadcastInDim S6600000 ![] bcast_S_S6600000 (constant (F := Ideal) S_ .f32 0x3F800000#32)))
    (broadcastInDim S200000 ![] bcast_S_S200000 (constant (F := Ideal) S_ .f32 0x3F800000#32)))

/-- Each edge's coefficient: the weight of its source times the weight of its target. -/
def coeff (s d : (⟨S6600000, .i32⟩ : BufTy).Contents (Elt Ideal)) : FVec Ideal S6600000 .f32 :=
  mulf (Host.gather gather_S200000_S6600000x1_S6600000_n_0_n_n_0_1_1 (weight d) (col (wrap s)))
    (Host.gather gather_S200000_S6600000x1_S6600000_n_0_n_n_0_1_1 (weight d) (col (wrap d)))

/-- One propagation step on a table of 16 columns: gather at the sources, scale by the coefficients, add at the targets. -/
def spread16 (s d : (⟨S6600000, .i32⟩ : BufTy).Contents (Elt Ideal)) (t : FVec Ideal S200000x16 .f32) : FVec Ideal S200000x16 .f32 :=
  Host.scatterAdd (F := Ideal) scatter_S200000x16_S6600000x1_S6600000x16_1_0_0_1
    (broadcastInDim S200000x16 ![] bcast_S_S200000x16 (constant (F := Ideal) S_ .f32 0x00000000#32)) (col d)
    (mulf (Host.gather gather_S200000x16_S6600000x1_S6600000x16_1_0_n_n_0_1_116 t (col (wrap s)))
      (broadcastInDim S6600000x16 ![0, 1] bcast_S6600000x1_S6600000x16_0_1
        (broadcastInDim S6600000x1 ![0] bcast_S6600000_S6600000x1_0 (coeff s d))))

/-- One propagation step on a table of 7 columns. -/
def spread7 (s d : (⟨S6600000, .i32⟩ : BufTy).Contents (Elt Ideal)) (t : FVec Ideal S200000x7 .f32) : FVec Ideal S200000x7 .f32 :=
  Host.scatterAdd (F := Ideal) scatter_S200000x7_S6600000x1_S6600000x7_1_0_0_1
    (broadcastInDim S200000x7 ![] bcast_S_S200000x7 (constant (F := Ideal) S_ .f32 0x00000000#32)) (col d)
    (mulf (Host.gather gather_S200000x7_S6600000x1_S6600000x7_1_0_n_n_0_1_17 t (col (wrap s)))
      (broadcastInDim S6600000x7 ![0, 1] bcast_S6600000x1_S6600000x7_0_1
        (broadcastInDim S6600000x1 ![0] bcast_S6600000_S6600000x1_0 (coeff s d))))

/-- The first dense layer: the features times the first weights. -/
def layer1 (x : FVec Ideal S200000x512 .f32) (w : FVec Ideal S512x16 .f32) : FVec Ideal S200000x16 .f32 :=
  Host.dotGeneral (F := Ideal) dot_S200000x512_S512x16_S200000x16_1_0_0_1_n_n none x w

/-- The bias added to every row and the rectifier: max (a (r, k) + b k) 0. -/
def biasRelu (a : FVec Ideal S200000x16 .f32) (b : FVec Ideal S16 .f32) : FVec Ideal S200000x16 .f32 :=
  maximumf (addf a (broadcastInDim S200000x16 ![0, 1] bcast_S1x16_S200000x16_0_1 (broadcastInDim S1x16 ![1] bcast_S16_S1x16_1 b)))
    (broadcastInDim S200000x16 ![] bcast_S_S200000x16 (constant (F := Ideal) S_ .f32 0x00000000#32))

/-- The second dense layer: bias, rectifier, times the second weights. -/
def layer2 (a : FVec Ideal S200000x16 .f32) (b : FVec Ideal S16 .f32) (w : FVec Ideal S16x7 .f32) : FVec Ideal S200000x7 .f32 :=
  Host.dotGeneral (F := Ideal) dot_S200000x16_S16x7_S200000x7_1_0_0_1_n_n none (biasRelu a b) w

/-- The second bias added to every row. -/
def addBias7 (a : FVec Ideal S200000x7 .f32) (b : FVec Ideal S7 .f32) : FVec Ideal S200000x7 .f32 :=
  addf a (broadcastInDim S200000x7 ![0, 1] bcast_S1x7_S200000x7_0_1 (broadcastInDim S1x7 ![1] bcast_S7_S1x7_1 b))

/-- The whole network. -/
def network (x : FVec Ideal S200000x512 .f32) (e : (⟨S2x6400000, .i32⟩ : BufTy).Contents (Elt Ideal)) (w1 : FVec Ideal S512x16 .f32)
    (b1 : FVec Ideal S16 .f32) (w2 : FVec Ideal S16x7 .f32) (b2 : FVec Ideal S7 .f32) : FVec Ideal S200000x7 .f32 :=
  addBias7 (spread7 (srcOf e) (dstOf e) (layer2 (spread16 (srcOf e) (dstOf e) (layer1 x w1)) b1 w2)) b2

end Cert.Gcn

end
-- ==== Proof.LibBiasRow.lean ====
/-
  A bias vector added to every row of a matrix, in the two spellings a program uses.

  A vector `bc` of N entries added to every row of an [M, N] matrix `a`:
  * reshaped to a row [1, N] and added with `RowsProduct.addRow` (a kernel that takes the bias as a [1, N] operand);
  * broadcast [N] → [1, N] → [M, N] and added entrywise (the host's `a + bc`).
  Both are `a (r, c) + bc c` at every entry, on any values.
-/
import proofs.«150889_j3444563771481_1_alg».proof.Proof.LibRowsProduct
import Idealize.ShloMosaic.Lib.Pipeline.Value

noncomputable section

namespace RowsProduct

open Idealize.ShloMosaic Idealize.ShloMosaic.ValueIdx

/-- The reshaped row added by `addRow` is the host's two broadcasts and entrywise sum. -/
theorem addRow_reshape_eq (M N : Nat) (a : FVec Ideal ⟨2, ![M, N]⟩ .f32) (bc : FVec Ideal ⟨1, ![N]⟩ .f32) (hN : N ≠ 1)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addRow M N a (shapeCast ⟨2, ![1, N]⟩ bc hs)
      = addf a (broadcastInDim ⟨2, ![M, N]⟩ ![0, 1] h2 (broadcastInDim ⟨2, ![1, N]⟩ ![1] h1 bc)) := by
  funext i
  show (a i : EReal) + shapeCast ⟨2, ![1, N]⟩ bc hs (ix2 (0 : Fin 1) (i 1))
    = (a i : EReal) + broadcastInDim ⟨2, ![M, N]⟩ ![0, 1] h2 (broadcastInDim ⟨2, ![1, N]⟩ ![1] h1 bc) i
  congr 1
  refine (shapeCast_addUnit_apply ![N] bc hs (ix2 (0 : Fin 1) (i 1))).trans ?_
  refine Eq.symm ((broadcastInDim_apply ![0, 1] h2 _ i (ix2 (0 : Fin 1) (i 1)) ?_).trans
    ((broadcastInDim_apply ![1] h1 bc (ix2 (0 : Fin 1) (i 1)) (ix1 (i 1)) ?_).trans ?_))
  · intro a
    match a with
    | ⟨0, _⟩ => show (0 : Nat) = if (1 : Nat) = 1 then 0 else _; rw [if_pos rfl]
    | ⟨1, _⟩ => show (i 1).val = if N = 1 then 0 else (i 1).val; rw [if_neg hN]
  · intro a
    match a with
    | ⟨0, _⟩ => show (i 1).val = if N = 1 then 0 else (i 1).val; rw [if_neg hN]
  · congr 1
    funext a
    match a with
    | ⟨0, _⟩ => rfl

end RowsProduct

end
-- ==== Proof.LayerForms.lean ====
/-
  The network's two dense layers as entrywise functions.

  The first layer, a host contraction of the feature table with the first weights, is the matrix product entry by
  entry. The second, the bias broadcast to every row and added, the maximum with the zero constant, then a host
  contraction with the second weights, is `DenseRect.hidden` with the bias vector read as a row: at (r, c) the sum
  over k of max (a (r, k) + b k) 0 * w (k, c). Both are re-readings of one finite sum of products; nothing is assumed
  finite.
-/
import proofs.«150889_j3444563771481_1_alg».proof.Proof.Network
import proofs.«150889_j3444563771481_1_alg».proof.Proof.LibDenseRect
import proofs.«150889_j3444563771481_1_alg».proof.Proof.LibBiasRow

noncomputable section

namespace Cert.Gcn

open Idealize.ShloMosaic Cert.ReferenceIdeal Cert.ReferenceIdeal.Facts₀

/-- The first layer is the product of the feature table and the first weights. -/
theorem layer1_eq (x : FVec Ideal S200000x512 .f32) (w : FVec Ideal S512x16 .f32) :
    layer1 x w = RowsProduct.prod 200000 512 16 x w :=
  RowsProduct.hostDot_eq 200000 512 16 x w

/-- The second layer is bias, rectifier and product, entry by entry. -/
theorem layer2_eq (a : FVec Ideal S200000x16 .f32) (b : FVec Ideal S16 .f32) (w : FVec Ideal S16x7 .f32)
    (hs : (⟨1, ![16]⟩ : Shape).ShapeCasts ⟨2, ![1, 16]⟩) :
    layer2 a b w = DenseRect.hidden 200000 16 7 a (shapeCast ⟨2, ![1, 16]⟩ b hs) w (Ideal.ofBits .f32 0x00000000#32) := by
  have e1 : addf (F := Ideal) a (broadcastInDim S200000x16 ![0, 1] bcast_S1x16_S200000x16_0_1 (broadcastInDim S1x16 ![1] bcast_S16_S1x16_1 b))
      = RowsProduct.addRow 200000 16 a (shapeCast ⟨2, ![1, 16]⟩ b hs) :=
    (RowsProduct.addRow_reshape_eq 200000 16 a b (by decide) hs bcast_S16_S1x16_1 bcast_S1x16_S200000x16_0_1).symm
  unfold layer2 biasRelu
  rw [e1]
  exact RowsProduct.hostDot_eq 200000 16 7 _ w

end Cert.Gcn

end
-- ==== Proof.KernelValue.lean ====
/-
  The idealized kernel's result is the network of its arguments.

  The program's buffer contents at the boundaries of its five stretches form a fold from the launch memory. Read at
  the buffers that matter:
  * after the first host stretch the source list, the target list and the edge coefficients are the network's own
    functions of the edge list;
  * the first region leaves the product of the feature table and the first weights (the tiled product is the whole
    product), and no later stretch writes the three edge arrays or any argument;
  * the second host stretch is one propagation step applied to that product;
  * the second region leaves the second layer of that table (the tiled layer is the whole layer);
  * the last host stretch is a propagation step and the second bias.
  Composed, the result buffer holds the network of the six launch arrays. Nothing is assumed finite or in range: the
  equations are between the same operations applied to equal operands.
-/
import proofs.«150889_j3444563771481_1_alg».proof.Proof.Gen.KernelIdeal.Frame
import proofs.«150889_j3444563771481_1_alg».proof.Proof.FirstProduct
import proofs.«150889_j3444563771481_1_alg».proof.Proof.SecondLayer
import proofs.«150889_j3444563771481_1_alg».proof.Proof.LayerForms
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After the first host stretch -/

/-- The source list. -/
theorem src_at1 (c : Dev nD) :
    W1 m ρ c (Proc.devRef .tc main_v5) = Cert.Gcn.srcOf (m ((c.tc : Thread nD τ).loc main_arg1)) := by
  show StableHlo.after hostOps0 (W0 m ρ c) (Proc.devRef .tc main_v5) = _
  after_results
  rfl

/-- The target list. -/
theorem dst_at1 (c : Dev nD) :
    W1 m ρ c (Proc.devRef .tc main_v6) = Cert.Gcn.dstOf (m ((c.tc : Thread nD τ).loc main_arg1)) := by
  show StableHlo.after hostOps0 (W0 m ρ c) (Proc.devRef .tc main_v6) = _
  after_results
  rfl

set_option maxHeartbeats 4000000 in
/-- The edge coefficients. -/
theorem coeff_at1 (c : Dev nD) :
    W1 m ρ c (Proc.devRef .tc main_v28)
      = Cert.Gcn.coeff (Cert.Gcn.srcOf (m ((c.tc : Thread nD τ).loc main_arg1))) (Cert.Gcn.dstOf (m ((c.tc : Thread nD τ).loc main_arg1))) := by
  show StableHlo.after hostOps0 (W0 m ρ c) (Proc.devRef .tc main_v28) = _
  after_results_simp
  rfl

/-- The first host stretch writes no argument. -/
theorem arg_at1 (c : Dev nD) (b : Ref sig .tc) (hb : b = main_arg0 ∨ b = main_arg2 ∨ b = main_arg3 ∨ b = main_arg4 ∨ b = main_arg5) :
    W1 m ρ c (Proc.devRef .tc b) = m ((c.tc : Thread nD τ).loc b) := by
  show StableHlo.after hostOps0 (W0 m ρ c) (Proc.devRef .tc b) = _
  rcases hb with rfl | rfl | rfl | rfl | rfl <;> (after_results_simp <;> rfl)

/-! ## Through the first region -/

/-- The first region writes only its output array: the three edge arrays are as before it. -/
theorem src_at2 (c : Dev nD) : W2 m ρ c (Proc.devRef .tc main_v5) = Cert.Gcn.srcOf (m ((c.tc : Thread nD τ).loc main_arg1)) :=
  (W2_of_ne m ρ c main_v5 (by decide)).trans (src_at1 m ρ c)
theorem dst_at2 (c : Dev nD) : W2 m ρ c (Proc.devRef .tc main_v6) = Cert.Gcn.dstOf (m ((c.tc : Thread nD τ).loc main_arg1)) :=
  (W2_of_ne m ρ c main_v6 (by decide)).trans (dst_at1 m ρ c)
theorem coeff_at2 (c : Dev nD) : W2 m ρ c (Proc.devRef .tc main_v28) = Cert.Gcn.coeff (Cert.Gcn.srcOf (m ((c.tc : Thread nD τ).loc main_arg1))) (Cert.Gcn.dstOf (m ((c.tc : Thread nD τ).loc main_arg1))) :=
  (W2_of_ne m ρ c main_v28 (by decide)).trans (coeff_at1 m ρ c)

/-- The first region's output array is the first layer of the launch arrays. -/
theorem product_at2 (c : Dev nD) : W2 m ρ c (Proc.devRef .tc main_v29) = Cert.Gcn.layer1 (m ((c.tc : Thread nD τ).loc main_arg0)) (m ((c.tc : Thread nD τ).loc main_arg2)) := by
  rw [Cert.Gcn.layer1_eq]
  refine ((W2_arr m ρ c 2).trans (product_array (V1 m ρ) c)).trans ?_
  show RowsProduct.prod 200000 512 16 (W1 m ρ c (Proc.devRef .tc main_arg0)) (W1 m ρ c (Proc.devRef .tc main_arg2)) = _
  rw [arg_at1 m ρ c main_arg0 (Or.inl rfl), arg_at1 m ρ c main_arg2 (Or.inr (Or.inl rfl))]

/-! ## After the second host stretch -/

/-- The second host stretch writes none of the edge arrays and no argument. -/
theorem kept_at3 (c : Dev nD) (b : Ref sig .tc)
    (hb : b = main_v5 ∨ b = main_v6 ∨ b = main_v28 ∨ b = main_arg3 ∨ b = main_arg4 ∨ b = main_arg5) :
    W3 m ρ c (Proc.devRef .tc b) = W2 m ρ c (Proc.devRef .tc b) := by
  show StableHlo.after hostOps1 (W2 m ρ c) (Proc.devRef .tc b) = _
  rcases hb with rfl | rfl | rfl | rfl | rfl | rfl <;> after_results_simp

/-- The second region's bias and weights are the launch arrays. -/
theorem bias_at3 (c : Dev nD) : W3 m ρ c (Proc.devRef .tc main_arg3) = m ((c.tc : Thread nD τ).loc main_arg3) :=
  ((kept_at3 m ρ c main_arg3 (by simp)).trans (W2_of_ne m ρ c main_arg3 (by decide))).trans
    (arg_at1 m ρ c main_arg3 (by simp))
theorem weights_at3 (c : Dev nD) : W3 m ρ c (Proc.devRef .tc main_arg4) = m ((c.tc : Thread nD τ).loc main_arg4) :=
  ((kept_at3 m ρ c main_arg4 (by simp)).trans (W2_of_ne m ρ c main_arg4 (by decide))).trans
    (arg_at1 m ρ c main_arg4 (by simp))

set_option maxHeartbeats 4000000 in
/-- The aggregated table: one propagation step on the first layer. -/
theorem table_at3 (c : Dev nD) :
    W3 m ρ c (Proc.devRef .tc main_v42) = Cert.Gcn.spread16 (Cert.Gcn.srcOf (m ((c.tc : Thread nD τ).loc main_arg1))) (Cert.Gcn.dstOf (m ((c.tc : Thread nD τ).loc main_arg1))) (Cert.Gcn.layer1 (m ((c.tc : Thread nD τ).loc main_arg0)) (m ((c.tc : Thread nD τ).loc main_arg2))) := by
  show StableHlo.after hostOps1 (W2 m ρ c) (Proc.devRef .tc main_v42) = _
  after_results_simp
  rw [src_at2, dst_at2, coeff_at2, product_at2]
  rfl

/-! ## Through the second region -/

/-- The second region's output array is the second layer of the aggregated table. -/
theorem hidden_at4 (c : Dev nD) :
    W4 m ρ c (Proc.devRef .tc main_v43)
      = Cert.Gcn.layer2 (Cert.Gcn.spread16 (Cert.Gcn.srcOf (m ((c.tc : Thread nD τ).loc main_arg1))) (Cert.Gcn.dstOf (m ((c.tc : Thread nD τ).loc main_arg1))) (Cert.Gcn.layer1 (m ((c.tc : Thread nD τ).loc main_arg0)) (m ((c.tc : Thread nD τ).loc main_arg2)))) (m ((c.tc : Thread nD τ).loc main_arg3)) (m ((c.tc : Thread nD τ).loc main_arg4)) := by
  rw [Cert.Gcn.layer2_eq _ _ _ shapeCasts_S16_S1x16]
  refine ((W4_arr m ρ c 3).trans (hidden_array (V3 m ρ) c)).trans ?_
  show DenseRect.hidden 200000 16 7 (W3 m ρ c (Proc.devRef .tc main_v42))
      (shapeCast S1x16 (W3 m ρ c (Proc.devRef .tc main_arg3)) shapeCasts_S16_S1x16) (W3 m ρ c (Proc.devRef .tc main_arg4))
      (Ideal.ofBits .f32 0x00000000#32) = _
  rw [table_at3, bias_at3, weights_at3]

/-- The second region writes only its output array. -/
theorem src_at4 (c : Dev nD) : W4 m ρ c (Proc.devRef .tc main_v5) = Cert.Gcn.srcOf (m ((c.tc : Thread nD τ).loc main_arg1)) :=
  ((W4_of_ne m ρ c main_v5 (by decide)).trans (kept_at3 m ρ c main_v5 (by simp))).trans (src_at2 m ρ c)
theorem dst_at4 (c : Dev nD) : W4 m ρ c (Proc.devRef .tc main_v6) = Cert.Gcn.dstOf (m ((c.tc : Thread nD τ).loc main_arg1)) :=
  ((W4_of_ne m ρ c main_v6 (by decide)).trans (kept_at3 m ρ c main_v6 (by simp))).trans (dst_at2 m ρ c)
theorem coeff_at4 (c : Dev nD) : W4 m ρ c (Proc.devRef .tc main_v28) = Cert.Gcn.coeff (Cert.Gcn.srcOf (m ((c.tc : Thread nD τ).loc main_arg1))) (Cert.Gcn.dstOf (m ((c.tc : Thread nD τ).loc main_arg1))) :=
  ((W4_of_ne m ρ c main_v28 (by decide)).trans (kept_at3 m ρ c main_v28 (by simp))).trans (coeff_at2 m ρ c)
theorem bias2_at4 (c : Dev nD) : W4 m ρ c (Proc.devRef .tc main_arg5) = m ((c.tc : Thread nD τ).loc main_arg5) :=
  (((W4_of_ne m ρ c main_arg5 (by decide)).trans (kept_at3 m ρ c main_arg5 (by simp))).trans
    (W2_of_ne m ρ c main_arg5 (by decide))).trans (arg_at1 m ρ c main_arg5 (by simp))

/-! ## After the last host stretch -/

set_option maxHeartbeats 4000000 in
/-- THE RESULT: the network of the six launch arrays. -/
theorem result_at5 (c : Dev nD) :
    W5 m ρ c (Proc.devRef .tc main_v59) = Cert.Gcn.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W4 m ρ c) (Proc.devRef .tc main_v59) = _
  after_results_simp
  rw [src_at4, dst_at4, coeff_at4, hidden_at4, bias2_at4]
  rfl

end Cert.KernelIdeal.Whole

end
-- ==== Proof.ReferenceValue.lean ====
/-
  The reference program's result is the network of its arguments.

  The reference is a straight line of host operations; its result buffer ends at the operations composed. That
  composition is, step for step, the network spelt as functions: the features times the first weights, a
  propagation step, the first bias and the rectifier, times the second weights, a propagation step, the second bias
  (the reference computes the edge coefficients once per layer; both times they are the same function of the edge
  list). So the equation is the unfolding of names on the two sides.
-/
import proofs.«150889_j3444563771481_1_alg».proof.Proof.Network
import proofs.«150889_j3444563771481_1_alg».proof.Proof.Gen.ReferenceIdeal.Run

noncomputable section

namespace Cert.ReferenceIdeal.Whole

open Idealize.ShloMosaic Idealize.ShloMosaic.TcCoe Idealize.SL.Sem Cert.ReferenceIdeal

set_option maxRecDepth 16384 in
/-- The reference's composed result term is the network of the launch contents of its six arguments. -/
theorem result_eq (m : (ℓ : Loc nD τ sig) → Buf (Elt Ideal) ℓ) (c : Dev nD) :
    Cert.ReferenceIdeal.Value.res_out0 (F := Ideal) m c
      = Cert.Gcn.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show Cert.ReferenceIdeal.Value.res_main_v85 (F := Ideal) m c = _
  unfold Cert.ReferenceIdeal.Value.res_main_v85
  rfl

end Cert.ReferenceIdeal.Whole

end
-- ==== Proof.lean ====
/-
  A two-layer graph convolution computed two ways ends with the same table, on the extended reals.

  The reference is a straight line of host operations. The kernel program computes the same line but hands its two
  dense steps to tiled kernels: the feature table times the first weights in 40 blocks of 5000 rows, and — after the
  first propagation step — the bias, the rectifier and the product with the second weights in 10 blocks of 20000
  rows. Every other operation (the self-loops, the degrees and edge coefficients, the gathers, the scaled
  scatter-additions, the last bias) is the same operation applied in the same order in both programs.

  An entry of a matrix product reads one row of its left operand, so a product of a block of rows is the matching
  rows of the whole product, and the blocks tile the rows: each tiled step leaves exactly the array the reference's
  whole-array contraction computes (the same finite sum of products at every entry). Hence both programs end at one
  and the same function of the six argument arrays, `Cert.Gcn.network`. No law that needs finiteness is used — no
  sum is regrouped against a product — so the precondition is not opened, and index words out of range are read by
  the same gathers and scatters on both sides.

  The three frames: the two kernel programs by their generated frame certificates, the reference by its generated run
  with the result dropped. The idealization rewrote nothing, so that claim is trivial.
-/
import proofs.«150889_j3444563771481_1_alg».proof.Defs
import proofs.«150889_j3444563771481_1_alg».proof.Proof.Gen.Kernel
import proofs.«150889_j3444563771481_1_alg».proof.Proof.Gen.Kernel.Frame
import proofs.«150889_j3444563771481_1_alg».proof.Proof.Gen.KernelIdeal
import proofs.«150889_j3444563771481_1_alg».proof.Proof.Gen.KernelIdeal.Frame
import proofs.«150889_j3444563771481_1_alg».proof.Proof.Gen.ReferenceIdeal
import proofs.«150889_j3444563771481_1_alg».proof.Proof.Gen.ReferenceIdeal.Run
import proofs.«150889_j3444563771481_1_alg».proof.Proof.Gen.Pre_finite_inputs
import proofs.«150889_j3444563771481_1_alg».proof.Proof.KernelRun
import proofs.«150889_j3444563771481_1_alg».proof.Proof.KernelValue
import proofs.«150889_j3444563771481_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the network of the argument arrays. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Whole.result_at5 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Whole.result_eq m' c).trans ?_
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
